-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x512 : Shape := ⟨2, ![1024, 512]⟩
abbrev S1024x1 : Shape := ⟨2, ![1024, 1]⟩
abbrev S1x1024 : Shape := ⟨2, ![1, 1024]⟩
abbrev S1024x1024 : Shape := ⟨2, ![1024, 1024]⟩
abbrev S1x8192x8192 : Shape := ⟨3, ![1, 8192, 8192]⟩

abbrev nBuf : Space → Nat
  | .hbm => 9
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S8192x512, .bf16⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S1x8192x8192, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  reducesTo_S8192x512_S8192_d1 : S8192x512.ReducesTo [1] S8192
  h_S_ : 0 < S_.numel
  shapeCasts_S8192_S8192x1 : S8192.ShapeCasts S8192x1
  shapeCasts_S8192_S1x8192 : S8192.ShapeCasts S1x8192
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  bcast_S8192x8192_S1x8192x8192_1_2 : S8192x8192.BroadcastsInDim S1x8192x8192 (![1, 2] : Fin 2 → Fin S1x8192x8192.rank)
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S512x8192 : Shape := ⟨2, ![512, 8192]⟩
abbrev S8192x8192 : Shape := ⟨2, ![8192, 8192]⟩
abbrev S8192x1 : Shape := ⟨2, ![8192, 1]⟩
abbrev S1x8192 : Shape := ⟨2, ![1, 8192]⟩
abbrev S1x8192x8192 : Shape := ⟨3, ![1, 8192, 8192]⟩

abbrev nBuf : Space → Nat
  | .hbm => 20
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S_, .f32⟩
  | .hbm, ⟨3, _⟩ => ⟨S8192, .f32⟩
  | .hbm, ⟨4, _⟩ => ⟨S512x8192, .f32⟩
  | .hbm, ⟨5, _⟩ => ⟨S8192x8192, .f32⟩
  | .hbm, ⟨6, _⟩ => ⟨S8192x1, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S1x8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  transposes_S8192x512_S512x8192_1_0 : S8192x512.Transposes [1, 0] S512x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  bcast_S8192x8192_S1x8192x8192_1_2 : S8192x8192.BroadcastsInDim S1x8192x8192 (![1, 2] : Fin 2 → Fin S1x8192x8192.rank)
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.BBody.lean ====
/-
  The kernel body at one grid point, and the pipeline's proof data.

  At grid point (i, j) the body reads four staged blocks — rows i of the rounded embeddings (1024 × 512), rows j of the
  same array (1024 × 512), the squared norms of rows i as a column (1024 × 1) and of rows j as a row (1 × 1024) —,
  computes from them one 1024 × 1024 block (`k0_pay1`: the clamped root of the norm sum minus twice the inner products)
  and stores it whole into the output's staging buffer; it also loads that buffer once, a value nothing uses. So after
  the body every input buffer holds its block still, and the output buffer holds the block computed from them.

  The two embedding windows stage ONE array. The proof data therefore hold that array at two half shares, one per
  window, which is all an input window needs: it is only ever read.
-/
import proofs.«121816_j9397388443804_2_alg».proof.Proof.Gen.Kernel.Launch
import proofs.«121816_j9397388443804_2_alg».proof.Proof.Gen.Kernel.Skeleton
import proofs.«121816_j9397388443804_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core `c`'s buffer contents when the region is entered: the six host operations before it have run. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses and what it leaves in the output buffer -/

abbrev rEmb : Rect S1024x512 := Rect.unit (s := S1024x512) ![0, 0] S1024x512.size inb_S1024x512_S1024x512_0_0
abbrev rCol : Rect S1024x1 := Rect.unit (s := S1024x1) ![0, 0] S1024x1.size inb_S1024x1_S1024x1_0_0
abbrev rRow : Rect S1x1024 := Rect.unit (s := S1x1024) ![0, 0] S1x1024.size inb_S1x1024_S1x1024_0_0
abbrev rOut : Rect S1024x1024 := Rect.unit (s := S1024x1024) ![0, 0] S1024x1024.size inb_S1024x1024_S1024x1024_0_0

/-- The output buffer after the body, from the four input blocks: its one store, of the whole block. -/
def outBlock (x0 x1 : Vec F S1024x512 .bf16) (x2 : Vec F S1024x1 .f32) (x3 : Vec F S1x1024 .f32) : Vec F S1024x1024 .f32 :=
  View.canon [⟨rOut, k0_pay1 (View.ld x0 rEmb) (View.ld x1 rEmb) (View.ld x2 rCol) (View.ld x3 rRow)⟩]

/-- The one store covers the buffer. -/
theorem coverOut (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

/-! ## The body's triple -/

set_option maxHeartbeats 1000000 in
/-- On whole staging memrefs, the inputs' at contents `x0 … x3` and the output's at anything, the body runs to its
    continuation with the inputs' as they were and the output's at `outBlock` of them. -/
theorem sound_kernel (c : Dev nD) (E : Set ℕ) (i : grid0.Coords)
    (arg2 : Memref sig .tc .vmem S1024x512 .bf16) (harg2 : arg2.IsWhole) (arg3 : Memref sig .tc .vmem S1024x512 .bf16) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1024 .f32) (harg6 : arg6.IsWhole)
    (x0 x1 : Vec F S1024x512 .bf16) (x2 : Vec F S1024x1 .f32) (x3 : Vec F S1x1024 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (outBlock x0 x1 x2 x3)) -∗ K ⟨⟩))
      ⊢ wp frame (wpE (defs₀ (F := F)) Variants.none c none) E
          (cc0__cdist_kernel i arg2 harg2 arg3 harg3 arg4 harg4 arg5 harg5 arg6 harg6) K := by
  simp only [cc0__cdist_kernel_eq_skeleton]; unfold cc0__cdist_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverOut _)

/-! ## The pipeline's proof data -/

/-- The proof data on core `c`: the arrays as the region finds them; after the body at point `t` each input's buffer at
    its block and the output's at `outBlock` of the four; the invariant only the scoped buffers no window stages (there
    are none); the shared array's two windows at the two halves of its share, the other inputs at the full share;
    nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlock (iblk m c 0 t) (iblk m c 1 t) (iblk m c 2 t) (iblk m c 3 t) := by dsimp only [dats]

/-- An input window's current buffer holds its block at every point, fetched there or not: where it is not fetched its
    block index has not moved and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.BRun.lean ====
/-
  The program's run: six host operations, the kernel region, one host operation.

  The host operations before the region round the embeddings, square and sum them along the rows and lay the sums out
  as a column and as a row; the region computes the distance matrix block by block; the operation after it adds a
  leading unit axis. The run is stated as the library's list of segments. At the region's entry the rounded embeddings'
  buffer is split into two half shares, one for each of the two windows that stage it; at its exit only three buffers
  are carried on — the matrix the region wrote, the result's buffer and the argument — and the last operation runs
  within those. Read at the end: the result holds the matrix with its unit axis, and the argument is as launched.
-/
import proofs.«121816_j9397388443804_2_alg».proof.Proof.BBody
import Idealize.ShloMosaic.Lib.Pipeline.Regions

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pipeline library's algebra is the whole user algebra. -/
abbrev EP : Emb (UR sig nD τ) (MT nD τ sig Unit (Elt F) ℕ (UR sig nD τ) ℕ) := emb₁

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers through every segment: what the core owes, which is nothing. -/
abbrev R (c : Dev nD) : sProp 𝕄 := iprop(∃ W, owes (c : Thread nD τ) (0 : CellTallies nD τ sig Unit) W)

/-! ## The host operations before the region -/

/-- Core `c`'s buffers at launch, as a valuation. -/
abbrev Vl (c : Dev nD) : Valuation τ sig (Elt F) := fun b => m (c, b)

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- The first segment: the six operations over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    hostOps0_fresh (Vl m) R

/-! ## The buffers carried past the region -/

/-- The three buffers the last segment runs within and the end reads: the matrix the region wrote, the result, the argument. -/
def tailList : List (Ref sig .tc) := [main_v5, main_v6, main_arg0]
def tailRefs : Finset (DevRef τ sig) := tailList.toFinset.map ⟨Proc.devRef (sig := sig) (.tc : Proc τ), Proc.devRef_injective _⟩

/-- The contents the region leaves: the matrix at what the write-backs made of it, every other buffer as the region found it. -/
def Vexit (c : Dev nD) : Valuation τ sig (Elt F) := by
  classical exact Function.update (V0 m c) (Proc.devRef .tc main_v5) ((dats m 0 c).arrAt 4 cfg0.N)

theorem Vexit_v5 (c : Dev nD) : Vexit m c (Proc.devRef .tc main_v5) = (dats m 0 c).arrAt 4 cfg0.N := by
  unfold Vexit; exact Function.update_self ..
theorem Vexit_of_ne (c : Dev nD) (b : Ref sig .tc) (hb : b ≠ main_v5) : Vexit m c (Proc.devRef .tc b) = V m c b := by
  unfold Vexit; exact Function.update_of_ne (StableHlo.devRef_ne_of_ne hb) ..

/-- The three buffers held at a valuation, one by one. -/
theorem held_tail (c : Dev nD) (W : Valuation τ sig (Elt F)) :
    (StableHlo.held (c : Thread nD τ) tailRefs W : sProp 𝕄)
      = iprop((((c : Thread nD τ).loc main_v5) ↦{fullShare} W (Proc.devRef .tc main_v5))
          ∗ (((c : Thread nD τ).loc main_v6) ↦{fullShare} W (Proc.devRef .tc main_v6))
          ∗ (((c : Thread nD τ).loc main_arg0) ↦{fullShare} W (Proc.devRef .tc main_arg0))) := by
  unfold StableHlo.held tailRefs
  rw [bigSep_map, bigSep_eq_bigSepL_of_eq tailList rfl (by decide)]
  simp only [tailList, bigSepL_cons, bigSepL]
  rfl

/-- The distinct buffers behind the windows' arrays, one by one. -/
theorem arrBufs_eq (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_v0) ↦{fullShare} Vv main_v0) ∗ (((c : Thread nD τ).loc main_v3) ↦{fullShare} Vv main_v3)
          ∗ (((c : Thread nD τ).loc main_v4) ↦{fullShare} Vv main_v4) ∗ (((c : Thread nD τ).loc main_v5) ↦{fullShare} Vv main_v5)) := by
  unfold Pipeline.arrBufs
  rw [bigSep_eq_bigSepL_of_eq [main_v0, main_v3, main_v4, main_v5] (by decide) (by decide)]
  simp only [bigSepL_cons, bigSepL]
  rfl

/-- ENTRY, the arrays' part: the four buffers behind the windows' arrays, each whole at the full share, are the
    pipeline's arrays at entry — the rounded embeddings' buffer split into its two halves, one per window on it. -/
theorem arrays_entry (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  simp only [View.set_whole]
  rw [show (dats m 0 c).share 0 = fullShare.left from rfl, show (dats m 0 c).share 1 = fullShare.right from rfl,
    show (dats m 0 c).share 2 = fullShare from rfl, show (dats m 0 c).share 3 = fullShare from rfl,
    show (dats m 0 c).share 4 = fullShare from rfl,
    show (dats m 0 c).arrAt 0 0 = V m c main_v0 from A_eq m c 0, show (dats m 0 c).arrAt 1 0 = V m c main_v0 from A_eq m c 1,
    show (dats m 0 c).arrAt 2 0 = V m c main_v3 from A_eq m c 2, show (dats m 0 c).arrAt 3 0 = V m c main_v4 from A_eq m c 3,
    show (dats m 0 c).arrAt 4 0 = V m c main_v5 from A_eq m c 4]
  iintro ⟨H0, H3, H4, H5⟩
  ihave H := (pointsTo_share (PosShare.mem_left_op_right fullShare)).1 $$ H0
  icases H with ⟨Ha, Hb⟩
  isplitl [Ha]; · iexact Ha
  isplitl [Hb]; · iexact Hb
  isplitl [H3]; · iexact H3
  isplitl [H4]; · iexact H4
  iexact H5

/-- EXIT, the arrays' part: of the pipeline's arrays at any contents, the output's buffer whole at the full share. -/
theorem arrays_exit (c : Dev nD) (G : (w : Fin cfg0.W) → Buf (Elt F) ((cfg0.win w).arr.view.loc (c : Thread nD τ))) :
    (dats m 0 c).arrays G ⊢ ((((c : Thread nD τ).loc main_v5) ↦{fullShare} G 4 : sProp 𝕄)) := by
  unfold Dat.arrays
  rw [bigSep_W0]
  simp only [View.set_whole]
  rw [show (dats m 0 c).share 4 = fullShare from rfl]
  iintro ⟨-, -, -, -, H5⟩
  iexact H5

/-! ## The region -/

/-- THE REGION: entered from what the first segment left — the windows' arrays into the pipeline, the argument and
    the result's buffer bypassing it, every other unscoped buffer let go —, left with the matrix at its final contents. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (Vl m c)) ∗ R c)
  post c := iprop(StableHlo.held (c : Thread nD τ) tailRefs (Vexit m c) ∗ R c)
  X c := iprop(emp)
  Y c := iprop(emp)
  Z c := iprop((((c : Thread nD τ).loc main_arg0) ↦{fullShare} V m c main_arg0) ∗ (((c : Thread nD τ).loc main_v6) ↦{fullShare} V m c main_v6))
  hentry c := by
    rw [show StableHlo.held (c : Thread nD τ) (Pipeline.ucRefs τ sig) (StableHlo.after hostOps0 (Vl m c)) = unscopedBufs c (V m c) from (Pipeline.unscopedBufs_held c _).symm]
    rw [Pipeline.unscopedBufs_split₀ cfgs 0 winFacts₀0.arr_unscoped c (V m c), unscopedRest0_eq c (V m c)]
    iintro ⟨⟨⟨Harr, Harg0, -, -, -, Hv6⟩, HO⟩, -, -⟩
    ihave Ha := (arrays_entry m c) $$ Harr
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Harg0]; · iexact Harg0
    iexact Hv6
  hin c := by
    rw [show (dats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (dats m 0 c).Φ (Fin.last (Pipeline.pin (pcfgs (F := F)) adm 0).N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [held_tail, Vexit_v5, Vexit_of_ne m c main_v6 (by decide), Vexit_of_ne m c main_arg0 (by decide)]
    iintro ⟨Ha, HO, -, ⟨Harg0, Hv6⟩⟩
    ihave H5 := (arrays_exit m c _) $$ Ha
    imodintro
    isplitr [HO]
    · isplitl [H5]; · iexact H5
      isplitl [Hv6]; · iexact Hv6
      iexact Harg0
    · unfold Pipeline.Dat.owesAt Pipeline.owesWithin
      icases HO with ⟨%W, -, HO⟩; iexists W; iexact HO

/-! ## The host operation after the region -/

theorem hostOps1_within : ∀ op ∈ (hostOps1 : List (HloOp τ sig (Elt F))), op.bufs ⊆ (tailRefs : Finset (DevRef τ sig)) := by
  intro op h
  simp only [List.mem_cons, List.mem_nil_iff, or_false] at h
  subst h
  rw [StableHlo.unary_bufs]
  intro b hb
  simp only [Finset.mem_insert, Finset.mem_singleton] at hb
  rcases hb with rfl | rfl <;> exact Finset.mem_map_of_mem _ (by decide)

/-- The last segment: the one operation, within the three buffers carried past the region. -/
def seg1 : Pipeline.HostSeg (Name := ℕ) (U := UR sig nD τ) (pcfgs (F := F)) defs₀ 𝒱₀ L lv :=
  Pipeline.HostSeg.ofOps _ _ _ _ _ tailRefs hostOps1 hostOps1_within hostOps1_fresh (Vexit m) R

/-! ## The run -/

/-- @main as the list of the three. -/
abbrev segs : List (Pipeline.Seg (pcfgs (F := F)) adm (dats m) () defs₀ 𝒱₀ L lv) := [.host (seg0 m), .region (reg0 m), .host (seg1 m)]

/-- The physical post: the result and the argument at what the last segment's valuation says. -/
def QC : PUnit × MemSt nD τ sig (Elt F) → Prop := fun r => ∀ c : Dev nD,
  r.2.mem ((c : Thread nD τ).loc main_v6) = StableHlo.after hostOps1 (Vexit m c) (Proc.devRef .tc main_v6)
    ∧ r.2.mem ((c : Thread nD τ).loc main_arg0) = StableHlo.after hostOps1 (Vexit m c) (Proc.devRef .tc main_arg0)

set_option backward.isDefEq.respectTransparency.types false in
/-- From any memory with zero counters, every weakly fair execution of @main terminates, and every final state has the
    result and the argument at the last segment's contents. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ R c))
    (Tₙ := fun c => StableHlo.held (c : Thread nD τ) tailRefs (StableHlo.after hostOps1 (Vexit m c)))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Vl m c) from Pipeline.unscopedBufs_held c (Vl m c)]
      iintro ⟨⟨Hh, -, HO, -, -, -⟩, -⟩
      imodintro
      isplitl [Hh]; · iexact Hh
      iexists ∅; iexact HO)
    (QY := fun c s => s.mem ((c : Thread nD τ).loc main_v6) = StableHlo.after hostOps1 (Vexit m c) (Proc.devRef .tc main_v6)
      ∧ s.mem ((c : Thread nD τ).loc main_arg0) = StableHlo.after hostOps1 (Vexit m c) (Proc.devRef .tc main_arg0))
    (hfin := fun c s' => by
      rw [held_tail]
      iintro ⟨⟨-, H6, H0⟩, HSI⟩
      icombine HSI H6 gives %h6
      icombine HSI H0 gives %h0
      imodintro
      isplitr; · ipureintro; exact ⟨Buf.eq_of_forall_mem_univ h6, Buf.eq_of_forall_mem_univ h0⟩
      iexact HSI)
    (hQ := fun _ h => h)

/-! ## What the run's post says -/

/-- No host operation writes the argument: the region finds it, and the end, as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

theorem end_main_arg0 (c : Dev nD) :
    StableHlo.after hostOps1 (Vexit m c) (Proc.devRef .tc main_arg0) = m ((c : Thread nD τ).loc main_arg0) := by
  rw [StableHlo.after_of_forall_not_mem (b := Proc.devRef .tc main_arg0) _ _ (List.forall_iff_forall_mem.mp (by
      simp only [hostOps1, List.Forall, StableHlo.unary_writes, Finset.mem_singleton]
      exact StableHlo.devRef_ne_of_ne (by decide))),
    Vexit_of_ne m c main_arg0 (by decide)]
  exact V_main_arg0 m c

/-- The result is the matrix the region wrote, with a leading unit axis. -/
theorem end_main_v6 (c : Dev nD) :
    StableHlo.after hostOps1 (Vexit m c) (Proc.devRef .tc main_v6)
      = broadcastInDim S1x8192x8192 ![1, 2] bcast_S8192x8192_S1x8192x8192_1_2 ((dats m 0 c).arrAt 4 cfg0.N) := by
  rw [StableHlo.after_cons, StableHlo.after_nil, StableHlo.unary_result, Vexit_v5]

/-- THE RUN, read: every weakly fair execution terminates, the result holding the region's matrix with its unit axis,
    the argument as launched. -/
theorem run_value : θ_run defs (onTc (τ := τ) (main (F := F))) ⟨m, fun _ => 0, ρ⟩ (fun r => ∀ c : Dev nD,
      r.2.mem ((c.tc : Thread nD τ).loc main_v6)
          = broadcastInDim S1x8192x8192 ![1, 2] bcast_S8192x8192_S1x8192x8192_1_2 ((dats m 0 c).arrAt 4 cfg0.N)
        ∧ r.2.mem ((c.tc : Thread nD τ).loc main_arg0) = m ((c.tc : Thread nD τ).loc main_arg0)) :=
  (θ_run defs _ _).mono (fun _ h c => ⟨((h c).1).trans (end_main_v6 m c), ((h c).2).trans (end_main_arg0 m c)⟩) (run_main m ρ)

/-- THE FRAME: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_value m ρ)

end Cert.Kernel.Hand

end
-- ==== Proof.KBody.lean ====
/-
  The kernel body at one grid point, and the pipeline's proof data.

  At grid point (i, j) the body reads four staged blocks — rows i of the rounded embeddings (1024 × 512), rows j of the
  same array (1024 × 512), the squared norms of rows i as a column (1024 × 1) and of rows j as a row (1 × 1024) —,
  computes from them one 1024 × 1024 block (`k0_pay1`: the clamped root of the norm sum minus twice the inner products)
  and stores it whole into the output's staging buffer; it also loads that buffer once, a value nothing uses. So after
  the body every input buffer holds its block still, and the output buffer holds the block computed from them.

  The two embedding windows stage ONE array. The proof data therefore hold that array at two half shares, one per
  window, which is all an input window needs: it is only ever read.
-/
import proofs.«121816_j9397388443804_2_alg».proof.Proof.Gen.KernelIdeal.Launch
import proofs.«121816_j9397388443804_2_alg».proof.Proof.Gen.KernelIdeal.Skeleton
import proofs.«121816_j9397388443804_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core `c`'s buffer contents when the region is entered: the six host operations before it have run. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses and what it leaves in the output buffer -/

abbrev rEmb : Rect S1024x512 := Rect.unit (s := S1024x512) ![0, 0] S1024x512.size inb_S1024x512_S1024x512_0_0
abbrev rCol : Rect S1024x1 := Rect.unit (s := S1024x1) ![0, 0] S1024x1.size inb_S1024x1_S1024x1_0_0
abbrev rRow : Rect S1x1024 := Rect.unit (s := S1x1024) ![0, 0] S1x1024.size inb_S1x1024_S1x1024_0_0
abbrev rOut : Rect S1024x1024 := Rect.unit (s := S1024x1024) ![0, 0] S1024x1024.size inb_S1024x1024_S1024x1024_0_0

/-- The output buffer after the body, from the four input blocks: its one store, of the whole block. -/
def outBlock (x0 x1 : Vec F S1024x512 .bf16) (x2 : Vec F S1024x1 .f32) (x3 : Vec F S1x1024 .f32) : Vec F S1024x1024 .f32 :=
  View.canon [⟨rOut, k0_pay1 (View.ld x0 rEmb) (View.ld x1 rEmb) (View.ld x2 rCol) (View.ld x3 rRow)⟩]

/-- The one store covers the buffer. -/
theorem coverOut (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

/-! ## The body's triple -/

set_option maxHeartbeats 1000000 in
/-- On whole staging memrefs, the inputs' at contents `x0 … x3` and the output's at anything, the body runs to its
    continuation with the inputs' as they were and the output's at `outBlock` of them. -/
theorem sound_kernel (c : Dev nD) (E : Set ℕ) (i : grid0.Coords)
    (arg2 : Memref sig .tc .vmem S1024x512 .bf16) (harg2 : arg2.IsWhole) (arg3 : Memref sig .tc .vmem S1024x512 .bf16) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1024 .f32) (harg6 : arg6.IsWhole)
    (x0 x1 : Vec F S1024x512 .bf16) (x2 : Vec F S1024x1 .f32) (x3 : Vec F S1x1024 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (outBlock x0 x1 x2 x3)) -∗ K ⟨⟩))
      ⊢ wp frame (wpE (defs₀ (F := F)) Variants.none c none) E
          (cc0__cdist_kernel i arg2 harg2 arg3 harg3 arg4 harg4 arg5 harg5 arg6 harg6) K := by
  simp only [cc0__cdist_kernel_eq_skeleton]; unfold cc0__cdist_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverOut _)

/-! ## The pipeline's proof data -/

/-- The proof data on core `c`: the arrays as the region finds them; after the body at point `t` each input's buffer at
    its block and the output's at `outBlock` of the four; the invariant only the scoped buffers no window stages (there
    are none); the shared array's two windows at the two halves of its share, the other inputs at the full share;
    nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlock (iblk m c 0 t) (iblk m c 1 t) (iblk m c 2 t) (iblk m c 3 t) := by dsimp only [dats]

/-- An input window's current buffer holds its block at every point, fetched there or not: where it is not fetched its
    block index has not moved and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KRun.lean ====
/-
  The program's run: six host operations, the kernel region, one host operation.

  The host operations before the region round the embeddings, square and sum them along the rows and lay the sums out
  as a column and as a row; the region computes the distance matrix block by block; the operation after it adds a
  leading unit axis. The run is stated as the library's list of segments. At the region's entry the rounded embeddings'
  buffer is split into two half shares, one for each of the two windows that stage it; at its exit only three buffers
  are carried on — the matrix the region wrote, the result's buffer and the argument — and the last operation runs
  within those. Read at the end: the result holds the matrix with its unit axis, and the argument is as launched.
-/
import proofs.«121816_j9397388443804_2_alg».proof.Proof.KBody
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pipeline library's algebra is the whole user algebra. -/
abbrev EP : Emb (UR sig nD τ) (MT nD τ sig Unit (Elt F) ℕ (UR sig nD τ) ℕ) := emb₁

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers through every segment: what the core owes, which is nothing. -/
abbrev R (c : Dev nD) : sProp 𝕄 := iprop(∃ W, owes (c : Thread nD τ) (0 : CellTallies nD τ sig Unit) W)

/-! ## The host operations before the region -/

/-- Core `c`'s buffers at launch, as a valuation. -/
abbrev Vl (c : Dev nD) : Valuation τ sig (Elt F) := fun b => m (c, b)

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- The first segment: the six operations over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    hostOps0_fresh (Vl m) R

/-! ## The buffers carried past the region -/

/-- The three buffers the last segment runs within and the end reads: the matrix the region wrote, the result, the argument. -/
def tailList : List (Ref sig .tc) := [main_v5, main_v6, main_arg0]
def tailRefs : Finset (DevRef τ sig) := tailList.toFinset.map ⟨Proc.devRef (sig := sig) (.tc : Proc τ), Proc.devRef_injective _⟩

/-- The contents the region leaves: the matrix at what the write-backs made of it, every other buffer as the region found it. -/
def Vexit (c : Dev nD) : Valuation τ sig (Elt F) := by
  classical exact Function.update (V0 m c) (Proc.devRef .tc main_v5) ((dats m 0 c).arrAt 4 cfg0.N)

theorem Vexit_v5 (c : Dev nD) : Vexit m c (Proc.devRef .tc main_v5) = (dats m 0 c).arrAt 4 cfg0.N := by
  unfold Vexit; exact Function.update_self ..
theorem Vexit_of_ne (c : Dev nD) (b : Ref sig .tc) (hb : b ≠ main_v5) : Vexit m c (Proc.devRef .tc b) = V m c b := by
  unfold Vexit; exact Function.update_of_ne (StableHlo.devRef_ne_of_ne hb) ..

/-- The three buffers held at a valuation, one by one. -/
theorem held_tail (c : Dev nD) (W : Valuation τ sig (Elt F)) :
    (StableHlo.held (c : Thread nD τ) tailRefs W : sProp 𝕄)
      = iprop((((c : Thread nD τ).loc main_v5) ↦{fullShare} W (Proc.devRef .tc main_v5))
          ∗ (((c : Thread nD τ).loc main_v6) ↦{fullShare} W (Proc.devRef .tc main_v6))
          ∗ (((c : Thread nD τ).loc main_arg0) ↦{fullShare} W (Proc.devRef .tc main_arg0))) := by
  unfold StableHlo.held tailRefs
  rw [bigSep_map, bigSep_eq_bigSepL_of_eq tailList rfl (by decide)]
  simp only [tailList, bigSepL_cons, bigSepL]
  rfl

/-- The distinct buffers behind the windows' arrays, one by one. -/
theorem arrBufs_eq (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_v0) ↦{fullShare} Vv main_v0) ∗ (((c : Thread nD τ).loc main_v3) ↦{fullShare} Vv main_v3)
          ∗ (((c : Thread nD τ).loc main_v4) ↦{fullShare} Vv main_v4) ∗ (((c : Thread nD τ).loc main_v5) ↦{fullShare} Vv main_v5)) := by
  unfold Pipeline.arrBufs
  rw [bigSep_eq_bigSepL_of_eq [main_v0, main_v3, main_v4, main_v5] (by decide) (by decide)]
  simp only [bigSepL_cons, bigSepL]
  rfl

/-- ENTRY, the arrays' part: the four buffers behind the windows' arrays, each whole at the full share, are the
    pipeline's arrays at entry — the rounded embeddings' buffer split into its two halves, one per window on it. -/
theorem arrays_entry (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  simp only [View.set_whole]
  rw [show (dats m 0 c).share 0 = fullShare.left from rfl, show (dats m 0 c).share 1 = fullShare.right from rfl,
    show (dats m 0 c).share 2 = fullShare from rfl, show (dats m 0 c).share 3 = fullShare from rfl,
    show (dats m 0 c).share 4 = fullShare from rfl,
    show (dats m 0 c).arrAt 0 0 = V m c main_v0 from A_eq m c 0, show (dats m 0 c).arrAt 1 0 = V m c main_v0 from A_eq m c 1,
    show (dats m 0 c).arrAt 2 0 = V m c main_v3 from A_eq m c 2, show (dats m 0 c).arrAt 3 0 = V m c main_v4 from A_eq m c 3,
    show (dats m 0 c).arrAt 4 0 = V m c main_v5 from A_eq m c 4]
  iintro ⟨H0, H3, H4, H5⟩
  ihave H := (pointsTo_share (PosShare.mem_left_op_right fullShare)).1 $$ H0
  icases H with ⟨Ha, Hb⟩
  isplitl [Ha]; · iexact Ha
  isplitl [Hb]; · iexact Hb
  isplitl [H3]; · iexact H3
  isplitl [H4]; · iexact H4
  iexact H5

/-- EXIT, the arrays' part: of the pipeline's arrays at any contents, the output's buffer whole at the full share. -/
theorem arrays_exit (c : Dev nD) (G : (w : Fin cfg0.W) → Buf (Elt F) ((cfg0.win w).arr.view.loc (c : Thread nD τ))) :
    (dats m 0 c).arrays G ⊢ ((((c : Thread nD τ).loc main_v5) ↦{fullShare} G 4 : sProp 𝕄)) := by
  unfold Dat.arrays
  rw [bigSep_W0]
  simp only [View.set_whole]
  rw [show (dats m 0 c).share 4 = fullShare from rfl]
  iintro ⟨-, -, -, -, H5⟩
  iexact H5

/-! ## The region -/

/-- THE REGION: entered from what the first segment left — the windows' arrays into the pipeline, the argument and
    the result's buffer bypassing it, every other unscoped buffer let go —, left with the matrix at its final contents. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (Vl m c)) ∗ R c)
  post c := iprop(StableHlo.held (c : Thread nD τ) tailRefs (Vexit m c) ∗ R c)
  X c := iprop(emp)
  Y c := iprop(emp)
  Z c := iprop((((c : Thread nD τ).loc main_arg0) ↦{fullShare} V m c main_arg0) ∗ (((c : Thread nD τ).loc main_v6) ↦{fullShare} V m c main_v6))
  hentry c := by
    rw [show StableHlo.held (c : Thread nD τ) (Pipeline.ucRefs τ sig) (StableHlo.after hostOps0 (Vl m c)) = unscopedBufs c (V m c) from (Pipeline.unscopedBufs_held c _).symm]
    rw [Pipeline.unscopedBufs_split₀ cfgs 0 winFacts₀0.arr_unscoped c (V m c), unscopedRest0_eq c (V m c)]
    iintro ⟨⟨⟨Harr, Harg0, -, -, -, Hv6⟩, HO⟩, -, -⟩
    ihave Ha := (arrays_entry m c) $$ Harr
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Harg0]; · iexact Harg0
    iexact Hv6
  hin c := by
    rw [show (dats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (dats m 0 c).Φ (Fin.last (Pipeline.pin (pcfgs (F := F)) adm 0).N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [held_tail, Vexit_v5, Vexit_of_ne m c main_v6 (by decide), Vexit_of_ne m c main_arg0 (by decide)]
    iintro ⟨Ha, HO, -, ⟨Harg0, Hv6⟩⟩
    ihave H5 := (arrays_exit m c _) $$ Ha
    imodintro
    isplitr [HO]
    · isplitl [H5]; · iexact H5
      isplitl [Hv6]; · iexact Hv6
      iexact Harg0
    · unfold Pipeline.Dat.owesAt Pipeline.owesWithin
      icases HO with ⟨%W, -, HO⟩; iexists W; iexact HO

/-! ## The host operation after the region -/

theorem hostOps1_within : ∀ op ∈ (hostOps1 : List (HloOp τ sig (Elt F))), op.bufs ⊆ (tailRefs : Finset (DevRef τ sig)) := by
  intro op h
  simp only [List.mem_cons, List.mem_nil_iff, or_false] at h
  subst h
  rw [StableHlo.unary_bufs]
  intro b hb
  simp only [Finset.mem_insert, Finset.mem_singleton] at hb
  rcases hb with rfl | rfl <;> exact Finset.mem_map_of_mem _ (by decide)

/-- The last segment: the one operation, within the three buffers carried past the region. -/
def seg1 : Pipeline.HostSeg (Name := ℕ) (U := UR sig nD τ) (pcfgs (F := F)) defs₀ 𝒱₀ L lv :=
  Pipeline.HostSeg.ofOps _ _ _ _ _ tailRefs hostOps1 hostOps1_within hostOps1_fresh (Vexit m) R

/-! ## The run -/

/-- @main as the list of the three. -/
abbrev segs : List (Pipeline.Seg (pcfgs (F := F)) adm (dats m) () defs₀ 𝒱₀ L lv) := [.host (seg0 m), .region (reg0 m), .host (seg1 m)]

/-- The physical post: the result and the argument at what the last segment's valuation says. -/
def QC : PUnit × MemSt nD τ sig (Elt F) → Prop := fun r => ∀ c : Dev nD,
  r.2.mem ((c : Thread nD τ).loc main_v6) = StableHlo.after hostOps1 (Vexit m c) (Proc.devRef .tc main_v6)
    ∧ r.2.mem ((c : Thread nD τ).loc main_arg0) = StableHlo.after hostOps1 (Vexit m c) (Proc.devRef .tc main_arg0)

set_option backward.isDefEq.respectTransparency.types false in
/-- From any memory with zero counters, every weakly fair execution of @main terminates, and every final state has the
    result and the argument at the last segment's contents. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ R c))
    (Tₙ := fun c => StableHlo.held (c : Thread nD τ) tailRefs (StableHlo.after hostOps1 (Vexit m c)))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Vl m c) from Pipeline.unscopedBufs_held c (Vl m c)]
      iintro ⟨⟨Hh, -, HO, -, -, -⟩, -⟩
      imodintro
      isplitl [Hh]; · iexact Hh
      iexists ∅; iexact HO)
    (QY := fun c s => s.mem ((c : Thread nD τ).loc main_v6) = StableHlo.after hostOps1 (Vexit m c) (Proc.devRef .tc main_v6)
      ∧ s.mem ((c : Thread nD τ).loc main_arg0) = StableHlo.after hostOps1 (Vexit m c) (Proc.devRef .tc main_arg0))
    (hfin := fun c s' => by
      rw [held_tail]
      iintro ⟨⟨-, H6, H0⟩, HSI⟩
      icombine HSI H6 gives %h6
      icombine HSI H0 gives %h0
      imodintro
      isplitr; · ipureintro; exact ⟨Buf.eq_of_forall_mem_univ h6, Buf.eq_of_forall_mem_univ h0⟩
      iexact HSI)
    (hQ := fun _ h => h)

/-! ## What the run's post says -/

/-- No host operation writes the argument: the region finds it, and the end, as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

theorem end_main_arg0 (c : Dev nD) :
    StableHlo.after hostOps1 (Vexit m c) (Proc.devRef .tc main_arg0) = m ((c : Thread nD τ).loc main_arg0) := by
  rw [StableHlo.after_of_forall_not_mem (b := Proc.devRef .tc main_arg0) _ _ (List.forall_iff_forall_mem.mp (by
      simp only [hostOps1, List.Forall, StableHlo.unary_writes, Finset.mem_singleton]
      exact StableHlo.devRef_ne_of_ne (by decide))),
    Vexit_of_ne m c main_arg0 (by decide)]
  exact V_main_arg0 m c

/-- The result is the matrix the region wrote, with a leading unit axis. -/
theorem end_main_v6 (c : Dev nD) :
    StableHlo.after hostOps1 (Vexit m c) (Proc.devRef .tc main_v6)
      = broadcastInDim S1x8192x8192 ![1, 2] bcast_S8192x8192_S1x8192x8192_1_2 ((dats m 0 c).arrAt 4 cfg0.N) := by
  rw [StableHlo.after_cons, StableHlo.after_nil, StableHlo.unary_result, Vexit_v5]

/-- THE RUN, read: every weakly fair execution terminates, the result holding the region's matrix with its unit axis,
    the argument as launched. -/
theorem run_value : θ_run defs (onTc (τ := τ) (main (F := F))) ⟨m, fun _ => 0, ρ⟩ (fun r => ∀ c : Dev nD,
      r.2.mem ((c.tc : Thread nD τ).loc main_v6)
          = broadcastInDim S1x8192x8192 ![1, 2] bcast_S8192x8192_S1x8192x8192_1_2 ((dats m 0 c).arrAt 4 cfg0.N)
        ∧ r.2.mem ((c.tc : Thread nD τ).loc main_arg0) = m ((c.tc : Thread nD τ).loc main_arg0)) :=
  (θ_run defs _ _).mono (fun _ h c => ⟨((h c).1).trans (end_main_v6 m c), ((h c).2).trans (end_main_arg0 m c)⟩) (run_main m ρ)

/-- THE FRAME: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_value m ρ)

end Cert.KernelIdeal.Hand

end
-- ==== Proof.PayloadAt.lean ====
/-
  The value the kernel body stores, read at one index of its 1024 × 1024 block.

  From two 1024 × 512 blocks `a`, `b`, a 1024 × 1 column `u` and a 1 × 1024 row `v`, the body forms

      √ (max ((u[p,0] + v[0,q]) − 2 · Σ_k a[p,k] · b[q,k]) 0)

  at `(p, q)`: the contraction runs along the second axis of BOTH blocks, so the right block is read by rows, and the
  column and the row are spread over the block before they are added. Everything else is applied entry by entry.
-/
import proofs.«121816_j9397388443804_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.Dist.Pay

open Idealize.ShloMosaic Idealize.ShloMosaic.ValueIdx Cert.KernelIdeal

/-! ## One column spread over many -/

/-- An `[a, 1]` array broadcast to `[a, b]` reads, at `(r, c)`, the operand's one column at `r`. -/
theorem broadcastTo_a1_ab_apply {α : Type} {a b : ℕ} (w : (⟨2, ![a, 1]⟩ : Shape).Idx → α)
    (h : (⟨2, ![a, 1]⟩ : Shape).Broadcasts ⟨2, ![a, b]⟩) (r : Fin a) (c : Fin b) :
    broadcastTo ⟨2, ![a, b]⟩ w h (ix2 r c) = w (ix2 r (0 : Fin 1)) := by
  refine broadcastTo_apply w h (ix2 r c) (ix2 r (0 : Fin 1)) fun ax => ?_
  match ax with
  | ⟨0, _⟩ =>
    show r.val = if a = 1 then 0 else r.val
    split
    · have := r.isLt; omega
    · rfl
  | ⟨1, _⟩ => rfl

/-! ## The contraction -/

/-- On its free (first) axis the left operand is read at the output's row coordinate … -/
theorem lhsIdx_free (j : S1024x1024.Idx) (c : Cert.KernelIdeal.dot_S1024x512_S1024x512_S1024x1024_1_1_0_0_n_n.contr.Idx) :
    (Cert.KernelIdeal.dot_S1024x512_S1024x512_S1024x1024_1_1_0_0_n_n.lhsIdx j c 0).val = (j 0).val := by
  unfold DotDims.lhsIdx
  rw [dif_neg (show ¬(0 : Fin S1024x512.rank) ∈ Cert.KernelIdeal.dot_S1024x512_S1024x512_S1024x1024_1_1_0_0_n_n.lhsBatch by decide),
    dif_pos (show (0 : Fin S1024x512.rank) ∈ Cert.KernelIdeal.dot_S1024x512_S1024x512_S1024x1024_1_1_0_0_n_n.lhsNonContracting by decide)]
  rfl

/-- … and the right operand, on ITS free (first) axis, at the output's column coordinate. -/
theorem rhsIdx_free (j : S1024x1024.Idx) (c : Cert.KernelIdeal.dot_S1024x512_S1024x512_S1024x1024_1_1_0_0_n_n.contr.Idx) :
    (Cert.KernelIdeal.dot_S1024x512_S1024x512_S1024x1024_1_1_0_0_n_n.rhsIdx j c 0).val = (j 1).val := by
  unfold DotDims.rhsIdx
  rw [dif_neg (show ¬(0 : Fin S1024x512.rank) ∈ Cert.KernelIdeal.dot_S1024x512_S1024x512_S1024x1024_1_1_0_0_n_n.rhsBatch by decide),
    dif_pos (show (0 : Fin S1024x512.rank) ∈ Cert.KernelIdeal.dot_S1024x512_S1024x512_S1024x1024_1_1_0_0_n_n.rhsNonContracting by decide)]
  rfl

/-- The left operand of the contraction at output `(p, q)` and contraction coordinate `k` is read at `(p, k)` … -/
theorem lhsIdx_eq (p q : Fin 1024) (k : Fin 512) :
    Cert.KernelIdeal.dot_S1024x512_S1024x512_S1024x1024_1_1_0_0_n_n.lhsIdx (ix2 p q)
        ((contrEquiv1 Cert.KernelIdeal.dot_S1024x512_S1024x512_S1024x1024_1_1_0_0_n_n 512 rfl rfl).symm k) = ix2 p k := by
  have hk := contrEquiv1_symm_val Cert.KernelIdeal.dot_S1024x512_S1024x512_S1024x1024_1_1_0_0_n_n 512 rfl rfl k
  refine funext fun ax => Fin.ext ?_
  match ax with
  | ⟨0, _⟩ => exact lhsIdx_free _ _
  | ⟨1, _⟩ => exact (Cert.KernelIdeal.dot_S1024x512_S1024x512_S1024x1024_1_1_0_0_n_n.lhsIdx_val_of_single rfl (ix2 p q) _).trans hk

/-- … and the right operand, whose contracted axis is also its second, at `(q, k)`. -/
theorem rhsIdx_eq (p q : Fin 1024) (k : Fin 512) :
    Cert.KernelIdeal.dot_S1024x512_S1024x512_S1024x1024_1_1_0_0_n_n.rhsIdx (ix2 p q)
        ((contrEquiv1 Cert.KernelIdeal.dot_S1024x512_S1024x512_S1024x1024_1_1_0_0_n_n 512 rfl rfl).symm k) = ix2 q k := by
  have hk := contrEquiv1_symm_val Cert.KernelIdeal.dot_S1024x512_S1024x512_S1024x1024_1_1_0_0_n_n 512 rfl rfl k
  refine funext fun ax => Fin.ext ?_
  match ax with
  | ⟨0, _⟩ => exact rhsIdx_free _ _
  | ⟨1, _⟩ => exact (Cert.KernelIdeal.dot_S1024x512_S1024x512_S1024x1024_1_1_0_0_n_n.rhsIdx_val_of_single rfl (ix2 p q) _).trans hk

/-- The product of two `[1024, 512]` blocks contracted along their second axes into a zero accumulator reads, at
    `(p, q)`, the inner product of row `p` of the left block and row `q` of the right one. -/
theorem matmul_zero_apply (x y : FVec Ideal S1024x512 .bf16) (p q : Fin 1024) :
    matmul (F := Ideal) Cert.KernelIdeal.dot_S1024x512_S1024x512_S1024x1024_1_1_0_0_n_n none x y
        (constant (F := Ideal) S1024x1024 .f32 0x00000000#32) (ix2 p q)
      = ∑ k : Fin 512, x (ix2 p k) * y (ix2 q k) := by
  refine (Ideal.matmul_constant_zero_apply Cert.KernelIdeal.dot_S1024x512_S1024x512_S1024x1024_1_1_0_0_n_n none x y (ix2 p q)).trans ?_
  rw [← Equiv.sum_comp (contrEquiv1 Cert.KernelIdeal.dot_S1024x512_S1024x512_S1024x1024_1_1_0_0_n_n 512 rfl rfl).symm]
  refine Finset.sum_congr rfl fun k _ => ?_
  rw [lhsIdx_eq p q k, rhsIdx_eq p q k]

/-! ## The stored value at an index -/

/-- The body's stored block at `(p, q)`: the root of the clamped difference between the spread column plus the spread
    row and twice the inner product of row `p` of `a` with row `q` of `b`. -/
theorem pay_apply (a b : Vec Ideal Cert.KernelIdeal.S1024x512 .bf16) (u : Vec Ideal Cert.KernelIdeal.S1024x1 .f32)
    (v : Vec Ideal Cert.KernelIdeal.S1x1024 .f32) (p q : Fin 1024) :
    Cert.KernelIdeal.Gen.k0_pay1 (F := Ideal) a b u v (ix2 p q)
      = Ideal.sqrt (max ((u (ix2 p (0 : Fin 1)) + v (ix2 (0 : Fin 1) q))
          - Ideal.ofBits .f32 0x40000000#32 * ∑ k : Fin 512, a (ix2 p k) * b (ix2 q k)) (Ideal.ofBits .f32 0x00000000#32)) := by
  unfold Cert.KernelIdeal.Gen.k0_pay1
  show Ideal.sqrt (max ((broadcastTo S1024x1024 (shapeCast S1024x1 u _) _ (ix2 p q)
        + broadcastTo S1024x1024 (shapeCast S1x1024 v _) _ (ix2 p q))
      - Ideal.ofBits .f32 0x40000000#32
        * matmul (F := Ideal) Cert.KernelIdeal.dot_S1024x512_S1024x512_S1024x1024_1_1_0_0_n_n none
            (shapeCast S1024x512 a _) (shapeCast S1024x512 b _) (constant (F := Ideal) S1024x1024 .f32 0x00000000#32) (ix2 p q))
      (Ideal.ofBits .f32 0x00000000#32)) = _
  rw [shapeCast_self, shapeCast_self, shapeCast_self, shapeCast_self, matmul_zero_apply,
    broadcastTo_a1_ab_apply, broadcastTo_1b_ab_apply]

end Cert.Dist.Pay

end
-- ==== Proof.Spec.lean ====
/-
  The function both programs compute, stated once over the extended reals.

  For an array `x` of 8192 rows of 512 entries and a vector `s` of 8192 numbers (the rows' squared norms, as
  either program sums them), the entry at `(i, j)` is

      √ (max ((s i + s j) − 2 · Σ_k x[i,k] · x[j,k]) 0),

  the Euclidean distance of rows `i` and `j` by the expansion ‖a − b‖² = ‖a‖² + ‖b‖² − 2 a·b, clamped at zero before
  the root. The two float literals (2 and 0) are kept as the words both programs print, so neither side evaluates them.
-/
import Idealize.ShloMosaic.PureOps.Ideal
import Idealize.ShloMosaic.Lib.ValueIdx

noncomputable section

namespace Cert.Dist

open Idealize.ShloMosaic Idealize.ShloMosaic.ValueIdx

/-- The inner product of rows `i` and `j` of `x`. -/
def gram (x : (⟨2, ![8192, 512]⟩ : Shape).Idx → EReal) (i j : Fin 8192) : EReal :=
  ∑ k : Fin 512, x (ix2 i k) * x (ix2 j k)

/-- The distance of rows `i` and `j` from the squared norms `s` and the inner product. -/
def entry (x : (⟨2, ![8192, 512]⟩ : Shape).Idx → EReal) (s : (⟨1, ![8192]⟩ : Shape).Idx → EReal) (i j : Fin 8192) : EReal :=
  Ideal.sqrt (max ((s (ix1 i) + s (ix1 j)) - Ideal.ofBits .f32 0x40000000#32 * gram x i j) (Ideal.ofBits .f32 0x00000000#32))

/-- The whole distance matrix. -/
def D (x : (⟨2, ![8192, 512]⟩ : Shape).Idx → EReal) (s : (⟨1, ![8192]⟩ : Shape).Idx → EReal) :
    (⟨2, ![8192, 8192]⟩ : Shape).Idx → EReal :=
  fun o => entry x s (o 0) (o 1)

theorem D_apply (x : (⟨2, ![8192, 512]⟩ : Shape).Idx → EReal) (s : (⟨1, ![8192]⟩ : Shape).Idx → EReal) (i j : Fin 8192) :
    D x s (ix2 i j) = entry x s i j := rfl

end Cert.Dist

end
-- ==== Proof.KValue.lean ====
/-
  The matrix the region writes is the distance matrix.

  The region's 8 × 8 grid computes the 8192 × 8192 result in 1024 × 1024 blocks: point t = (t / 8, t % 8) reads rows
  1024 (t / 8) … of the rounded embeddings and of the column of squared norms, rows 1024 (t % 8) … of the same
  embeddings and of the row of squared norms, and writes block (t / 8, t % 8). Rounding is the identity on extended
  reals, and the column and the row are two reshapes of ONE vector s of squared norms, so with x the argument array the
  entry written at (r, s') is

      √ (max ((s r + s s') − 2 · Σ_k x[r,k] · x[s',k]) 0),

  that of `Cert.Dist.D x s`. The 64 blocks tile the matrix, so after the run the array is `D x s` everywhere.
-/
import proofs.«121816_j9397388443804_2_alg».proof.Proof.KBody
import proofs.«121816_j9397388443804_2_alg».proof.Proof.PayloadAt
import proofs.«121816_j9397388443804_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The argument array on core `c`. -/
abbrev argX (c : Dev nD) : S8192x512.Idx → EReal := m ((c : Thread nD τ).loc main_arg0)

/-- The rows' squared norms, as the host sums them before the region. -/
abbrev rowSq (c : Dev nD) : S8192.Idx → EReal :=
  Host.reduceAdd (F := Ideal) (mulf (F := Ideal) (φ := .f32) (argX m c) (argX m c)) (constant (F := Ideal) S_ .f32 0x00000000#32) reducesTo_S8192x512_S8192_d1 h_S_

/-! ## The arrays the windows stage, as terms of the argument -/

/-- The embedding windows' array is the argument rounded to the narrower format … -/
theorem V_emb (c : Dev nD) :
    @Eq (S8192x512.Idx → EReal) (V m c main_v0) (truncf (F := Ideal) (φ := .f32) .bf16 (argX m c) bitsLt_bf16_f32) := by
  dsimp only [V, V0, hostOps0]
  after_results

/-- … the column window's the squared norms reshaped to a column … -/
theorem V_col (c : Dev nD) :
    @Eq (S8192x1.Idx → EReal) (V m c main_v3) (shapeCast S8192x1 (rowSq m c) shapeCasts_S8192_S8192x1) := by
  dsimp only [V, V0, hostOps0]
  after_results
  rfl

/-- … and the row window's the same norms reshaped to a row. -/
theorem V_row (c : Dev nD) :
    @Eq (S1x8192.Idx → EReal) (V m c main_v4) (shapeCast S1x8192 (rowSq m c) shapeCasts_S8192_S1x8192) := by
  dsimp only [V, V0, hostOps0]
  after_results
  rfl

/-- A `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The rounded embeddings the two embedding windows stage are, as extended reals, the argument array itself. -/
theorem V_emb_apply (c : Dev nD) (r : Fin 8192) (k : Fin 512) :
    (V m c main_v0 : S8192x512.Idx → EReal) (ix2 r k) = argX m c (ix2 r k) := by
  rw [V_emb]; rfl

/-- The column the third window stages holds the squared norm of row `r` at `(r, 0)`. -/
theorem V_col_apply (c : Dev nD) (r : Fin 8192) :
    (V m c main_v3 : S8192x1.Idx → EReal) (ix2 r (0 : Fin 1)) = rowSq m c (ix1 r) := by
  rw [V_col]; exact shapeCast_a_a1_apply _ _ r 0

/-- The row the fourth window stages holds the squared norm of row `r` at `(0, r)`. -/
theorem V_row_apply (c : Dev nD) (r : Fin 8192) :
    (V m c main_v4 : S1x8192.Idx → EReal) (ix2 (0 : Fin 1) r) = rowSq m c (ix1 r) := by
  rw [V_row]; exact shapeCast_a_1a_apply _ _ 0 r

/-- The windows' block indices over the 8 × 8 grid, point `t` being (t / 8, t % 8): the first embedding window and the
    column follow the grid's first coordinate, the second embedding window and the row its second, the output both. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = t.val % 8 :=
  (by decide +kernel : ∀ t : Fin grid0.N, _)

/-- The grid has 64 points. -/
theorem grid_points : cfg0.N = 64 := N_0

/-! ## The staged blocks at a point, read at an index -/

/-- The first embedding block at point `t` is rows `1024 (t / 8) …` of the argument. -/
theorem iblk0_apply (c : Dev nD) (t : Fin cfg0.N) (p : Fin 1024) (k : Fin 512) (r : Fin 8192)
    (hr : r.val = 1024 * (t.val / 8) + p.val) :
    (iblk m c 0 t : Vec Ideal S1024x512 .bf16) (ix2 p k) = argX m c (ix2 r k) := by
  obtain ⟨e0, e1, -⟩ := idx_facts t
  refine Eq.trans ?_ (V_emb_apply m c r k)
  unfold iblk
  rw [View.read_apply]
  show V m c main_v0 _ = V m c main_v0 _
  congr 1
  funext a
  apply Fin.ext
  match a with
  | ⟨0, _⟩ => show win0_0.index t (0 : Fin 2) * 1024 + 1 * p.val = r.val; rw [e0, hr]; omega
  | ⟨1, _⟩ => show win0_0.index t (1 : Fin 2) * 512 + 1 * k.val = k.val; rw [e1]; omega

/-- The second embedding block at point `t` is rows `1024 (t % 8) …` of the argument. -/
theorem iblk1_apply (c : Dev nD) (t : Fin cfg0.N) (q : Fin 1024) (k : Fin 512) (r : Fin 8192)
    (hr : r.val = 1024 * (t.val % 8) + q.val) :
    (iblk m c 1 t : Vec Ideal S1024x512 .bf16) (ix2 q k) = argX m c (ix2 r k) := by
  obtain ⟨-, -, e0, e1, -⟩ := idx_facts t
  refine Eq.trans ?_ (V_emb_apply m c r k)
  unfold iblk
  rw [View.read_apply]
  show V m c main_v0 _ = V m c main_v0 _
  congr 1
  funext a
  apply Fin.ext
  match a with
  | ⟨0, _⟩ => show win0_1.index t (0 : Fin 2) * 1024 + 1 * q.val = r.val; rw [e0, hr]; omega
  | ⟨1, _⟩ => show win0_1.index t (1 : Fin 2) * 512 + 1 * k.val = k.val; rw [e1]; omega

/-- The column block at point `t` holds the squared norms of rows `1024 (t / 8) …`. -/
theorem iblk2_apply (c : Dev nD) (t : Fin cfg0.N) (p : Fin 1024) (r : Fin 8192)
    (hr : r.val = 1024 * (t.val / 8) + p.val) :
    (iblk m c 2 t : Vec Ideal S1024x1 .f32) (ix2 p (0 : Fin 1)) = rowSq m c (ix1 r) := by
  obtain ⟨-, -, -, -, e0, e1, -⟩ := idx_facts t
  refine Eq.trans ?_ (V_col_apply m c r)
  unfold iblk
  rw [View.read_apply]
  show V m c main_v3 _ = V m c main_v3 _
  congr 1
  funext a
  apply Fin.ext
  match a with
  | ⟨0, _⟩ => show win0_2.index t (0 : Fin 2) * 1024 + 1 * p.val = r.val; rw [e0, hr]; omega
  | ⟨1, _⟩ => show win0_2.index t (1 : Fin 2) * 1 + 1 * 0 = 0; rw [e1]

/-- The row block at point `t` holds the squared norms of rows `1024 (t % 8) …`. -/
theorem iblk3_apply (c : Dev nD) (t : Fin cfg0.N) (q : Fin 1024) (r : Fin 8192)
    (hr : r.val = 1024 * (t.val % 8) + q.val) :
    (iblk m c 3 t : Vec Ideal S1x1024 .f32) (ix2 (0 : Fin 1) q) = rowSq m c (ix1 r) := by
  obtain ⟨-, -, -, -, -, -, e0, e1, -⟩ := idx_facts t
  refine Eq.trans ?_ (V_row_apply m c r)
  unfold iblk
  rw [View.read_apply]
  show V m c main_v4 _ = V m c main_v4 _
  congr 1
  funext a
  apply Fin.ext
  match a with
  | ⟨0, _⟩ => show win0_3.index t (0 : Fin 2) * 1 + 1 * 0 = 0; rw [e0]
  | ⟨1, _⟩ => show win0_3.index t (1 : Fin 2) * 1024 + 1 * q.val = r.val; rw [e1, hr]; omega

/-! ## What a point writes back, the cover, and the array after the run -/

/-- The body's accesses start at the origin of their buffers. -/
theorem off_zero : (![0, 0] : Fin 2 → Nat) = fun _ => 0 := funext fun a => by fin_cases a <;> rfl

/-- What point `t` writes back is block `t` of the distance matrix of the argument and its rows' squared norms. -/
theorem block_eq (c : Dev nD) (t : Fin cfg0.N) :
    (dats m 0 c).flushed 4 t = ((cfg0.win 4).blk t).view.read (Elt Ideal) (Cert.Dist.D (argX m c) (rowSq m c)) := by
  show (cfg0.win 4).cut (cfg0.grid.coords t) ((dats m 0 c).after 4 t) = _
  rw [after0_4]
  unfold outBlock
  rw [View.canon_unit_zero off_zero]
  simp only [View.ld_unit_zero (S := S1024x512) off_zero, View.ld_unit_zero (S := S1024x1) off_zero, View.ld_unit_zero (S := S1x1024) off_zero]
  funext y
  obtain ⟨p, q, rfl⟩ : ∃ (p : Fin 1024) (q : Fin 1024), y = ix2 p q := ⟨y 0, y 1, eq_ix2 y⟩
  have hp : p.val < 1024 := p.isLt
  have hq : q.val < 1024 := q.isLt
  have ht : t.val < 64 := lt_of_lt_of_eq t.isLt grid_points
  obtain ⟨r, hr⟩ : ∃ r : Fin 8192, r.val = 1024 * (t.val / 8) + p.val := ⟨⟨1024 * (t.val / 8) + p.val, by omega⟩, rfl⟩
  obtain ⟨s, hs⟩ : ∃ s : Fin 8192, s.val = 1024 * (t.val % 8) + q.val := ⟨⟨1024 * (t.val % 8) + q.val, by omega⟩, rfl⟩
  obtain ⟨-, -, -, -, -, -, -, -, e0, e1⟩ := idx_facts t
  have hemb : ((cfg0.win 4).blk t).view.emb (ix2 p q) = ix2 r s := by
    funext a
    apply Fin.ext
    match a with
    | ⟨0, _⟩ => show win0_4.index t (0 : Fin 2) * 1024 + 1 * p.val = r.val; rw [e0, hr]; omega
    | ⟨1, _⟩ => show win0_4.index t (1 : Fin 2) * 1024 + 1 * q.val = s.val; rw [e1, hs]; omega
  show k0_pay1 (F := Ideal) (iblk m c 0 t) (iblk m c 1 t) (iblk m c 2 t) (iblk m c 3 t) (ix2 p q)
      = Cert.Dist.D (argX m c) (rowSq m c) (((cfg0.win 4).blk t).view.emb (ix2 p q))
  refine (Cert.Dist.Pay.pay_apply _ _ _ _ p q).trans ?_
  rw [hemb, Cert.Dist.D_apply]
  unfold Cert.Dist.entry Cert.Dist.gram
  rw [iblk2_apply m c t p r hr, iblk3_apply m c t q s hs]
  refine congrArg Ideal.sqrt (congrArg (fun z => max z _) (congrArg (fun z => _ - _ * z) (Finset.sum_congr rfl fun k _ => ?_)))
  rw [iblk0_apply m c t p k r hr, iblk1_apply m c t q k s hs]

/-- An index of the matrix is in point `t`'s block iff each coordinate is in the block's range on its axis. -/
theorem mem_out_blk (t : Fin cfg0.N) (i : S8192x8192.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v5).slice (win0_4.rect t)).set ↔ _
  rw [View.set_slice_whole, Rect.mem_set_unit]
  exact Iff.rfl

/-- Every index of the matrix is in some point's block: `(r, s)` in that of point `8 (r / 1024) + s / 1024`. -/
theorem out_cover (i : S8192x8192.Idx) :
    ∃ t : Fin cfg0.N, (cfg0.win 4).flush t = true ∧ i ∈ ((cfg0.win 4).blk t).view.set := by
  have h0 : (i 0).val < 8192 := (i 0).isLt
  have h1 : (i 1).val < 8192 := (i 1).isLt
  obtain ⟨t, ht⟩ : ∃ t : Fin cfg0.N, t.val = 8 * ((i 0).val / 1024) + (i 1).val / 1024 :=
    ⟨⟨8 * ((i 0).val / 1024) + (i 1).val / 1024, by rw [grid_points]; omega⟩, rfl⟩
  obtain ⟨-, -, -, -, -, -, -, -, e0, e1⟩ := idx_facts t
  refine ⟨t, flush0_4 t, ?_⟩
  rw [mem_out_blk]
  intro a
  match a with
  | ⟨0, _⟩ => show win0_4.index t (0 : Fin 2) * 1024 ≤ (i 0).val ∧ (i 0).val < win0_4.index t (0 : Fin 2) * 1024 + 1024; rw [e0, ht]; omega
  | ⟨1, _⟩ => show win0_4.index t (1 : Fin 2) * 1024 ≤ (i 1).val ∧ (i 1).val < win0_4.index t (1 : Fin 2) * 1024 + 1024; rw [e1, ht]; omega

/-- The output array after the run is the distance matrix of the argument array and its rows' squared norms. -/
theorem final_out (c : Dev nD) :
    (dats (F := Ideal) m 0 c).arrAt 4 cfg0.N
      = Cert.Dist.D (m ((c : Thread nD τ).loc main_arg0))
          (Host.reduceAdd (F := Ideal) (mulf (m ((c : Thread nD τ).loc main_arg0)) (m ((c : Thread nD τ).loc main_arg0)))
            (constant (F := Ideal) S_ .f32 0x00000000#32) reducesTo_S8192x512_S8192_d1 h_S_) :=
  (dats m 0 c).arrAt_eq_of_cover 4 (Cert.Dist.D (argX m c) (rowSq m c)) (fun t _ => block_eq m c t) out_cover

end Cert.KernelIdeal.Hand

end
-- ==== Proof.RefIsDist.lean ====
/-
  The reference's two-dimensional stage is the distance matrix `D`.

  Reading the reference one operation at a time at the index `(i, j)`: the two broadcasts of the row sums give
  `s i` and `s j`; the product of `x` with its transpose gives `Σ_k x[i,k] · x[j,k]`, scaled by the literal 2;
  the difference is clamped at the literal 0 and the root is taken. That is `entry x s i j` term by term, with `s`
  the reference's own row sums, which stay unopened.
-/
import proofs.«121816_j9397388443804_2_alg».proof.Proof.Gen.ReferenceIdeal.Read
import proofs.«121816_j9397388443804_2_alg».proof.Proof.Spec
import Idealize.ShloMosaic.PureOps.Ideal.Laws
import Idealize.ShloMosaic.Lib.ValueIdx

noncomputable section

namespace Cert.Dist.Ref

open Idealize.ShloMosaic Idealize.ShloMosaic.ValueIdx Cert.ReferenceIdeal Cert.ReferenceIdeal.Read

/-- The column broadcast of the row sums, read at `(i, j)`, reads the sums at `i`. -/
theorem idx_rows (i j : Fin 8192) : idx_main_v4 (idx_main_v6 (ix2 i j)) = ix1 i :=
  funext fun a => Fin.ext (by match a with | ⟨0, _⟩ => rfl)

/-- The row broadcast of the row sums, read at `(i, j)`, reads the sums at `j`. -/
theorem idx_cols (i j : Fin 8192) : idx_main_v5 (idx_main_v7 (ix2 i j)) = ix1 j :=
  funext fun a => Fin.ext (by match a with | ⟨0, _⟩ => rfl)

/-- The product's left operand at `(i, j)` and contraction position `k` is `x[i, k]`. -/
theorem idx_left (i j : Fin 8192) (k : Fin 512) : lidx_main_v3 (ix2 i j) k = ix2 i k :=
  funext fun a => Fin.ext (by match a with | ⟨0, _⟩ => rfl | ⟨1, _⟩ => rfl)

/-- The product's right operand is the transpose of `x`: at `(i, j)` and position `k` it is `x[j, k]`. -/
theorem idx_right (i j : Fin 8192) (k : Fin 512) : idx_main_v2 (ridx_main_v3 (ix2 i j) k) = ix2 j k :=
  funext fun a => Fin.ext (by match a with | ⟨0, _⟩ => rfl | ⟨1, _⟩ => rfl)

/-- The reference's stage before its last reshaping is `D` of the argument and of the reference's row sums. -/
theorem ref_eq (x0 : (⟨Cert.ReferenceIdeal.S8192x512, .f32⟩ : BufTy).Contents (Elt Ideal)) :
    Cert.ReferenceIdeal.Read.val_main_v14 (F := Ideal) x0
      = Cert.Dist.D x0 (Cert.ReferenceIdeal.Read.val_main_v1 (F := Ideal) x0) := by
  funext o
  obtain ⟨i, j, rfl⟩ : ∃ (i j : Fin 8192), o = ix2 i j := ⟨o 0, o 1, eq_ix2 o⟩
  rw [Cert.Dist.D_apply]
  unfold entry gram
  rw [val_main_v14_apply, val_main_v13_apply, val_main_v11_apply, val_main_v8_apply, val_main_v6_apply,
    val_main_v4_apply, val_main_v7_apply, val_main_v5_apply, val_main_v10_apply, val_main_v9_apply,
    val_main_cst_0_apply, val_main_v12_apply, val_main_cst_1_apply, val_main_v3_apply]
  simp only [val_main_v2_apply, idx_rows, idx_cols, idx_left, idx_right, Ideal.hostUnary_sqrt_def,
    Ideal.maximumf_def, Ideal.subf_def, Ideal.addf_def, Ideal.mulf_def, Ideal.ofBits_def]

end Cert.Dist.Ref

end
-- ==== Proof.lean ====
/-
  The certificate: an all-pairs Euclidean distance matrix by the expansion ‖a − b‖² = ‖a‖² + ‖b‖² − 2 a·b.

  The kernel's program rounds the 8192 × 512 embeddings, sums their squares along the rows, and runs a grid of 8 × 8
  points, each computing one 1024 × 1024 block of  √(max((s_i + s_j) − 2 · Σ_k x[i,k] · x[j,k], 0))  from two row blocks of
  the rounded array and the matching pieces of the squared norms; the reference computes the same matrix whole, with a
  product of the array and its transpose. Over the extended reals a change of float format is the identity and a
  block-wise product is the product, so both programs end with `D x s` (Proof/Spec.lean) under a leading unit axis,
  `x` the argument and `s` its rows' squared norms as either program's host sums them — the same term on both sides.
  No algebraic law is needed beyond that, and the precondition (finite inputs) is never opened.

  The frames: each kernel program's run is the library's list of segments — host operations, the region, a host
  operation — with the one array two windows stage held at two half shares inside the region (Proof/KRun.lean at the
  ideal instance, Proof/BRun.lean at the word-level one); the reference's frame is its run with the result dropped.
  The idealization rewrote nothing, so `preserves` is `True`.
-/
import proofs.«121816_j9397388443804_2_alg».proof.Defs
import proofs.«121816_j9397388443804_2_alg».proof.Proof.Gen.Kernel
import proofs.«121816_j9397388443804_2_alg».proof.Proof.Gen.KernelIdeal
import proofs.«121816_j9397388443804_2_alg».proof.Proof.Gen.ReferenceIdeal
import proofs.«121816_j9397388443804_2_alg».proof.Proof.Gen.Pre_finite_inputs
import proofs.«121816_j9397388443804_2_alg».proof.Proof.Gen.ReferenceIdeal.Run
import proofs.«121816_j9397388443804_2_alg».proof.Proof.Gen.ReferenceIdeal.Read
import proofs.«121816_j9397388443804_2_alg».proof.Proof.BRun
import proofs.«121816_j9397388443804_2_alg».proof.Proof.KRun
import proofs.«121816_j9397388443804_2_alg».proof.Proof.KValue
import proofs.«121816_j9397388443804_2_alg».proof.Proof.RefIsDist

noncomputable section

namespace Cert.Proof

open Idealize.ShloMosaic Idealize.ShloMosaic.TcCoe Idealize.SL.Sem

theorem frame_p : Cert.frame_Kernel := fun m ρ _ => Cert.Kernel.Hand.frame m ρ
theorem frame_pi : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The reference's result term is `D` of its argument and its own row sums, under the leading unit axis. -/
theorem ref_value (x0 : (⟨Cert.ReferenceIdeal.S8192x512, .f32⟩ : BufTy).Contents (Elt Ideal)) :
    Cert.ReferenceIdeal.Read.val_main_v15 (F := Ideal) x0
      = broadcastInDim Cert.ReferenceIdeal.S1x8192x8192 ![1, 2] Cert.ReferenceIdeal.Facts₀.bcast_S8192x8192_S1x8192x8192_1_2
          (Cert.Dist.D x0 (Cert.ReferenceIdeal.Read.val_main_v1 (F := Ideal) x0)) := by
  unfold Cert.ReferenceIdeal.Read.val_main_v15
  rw [Cert.Dist.Ref.ref_eq]

/-- At the ideal instance both programs end with the distance matrix of the argument under a leading unit axis: the
    kernel's region writes it block by block, the reference computes it whole. -/
theorem algebraic : Cert.algebraic_KernelIdeal_ReferenceIdeal := by
  intro m ρ m' ρ' _ hagree
  refine ⟨_, Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, ref_value, hagree c, Cert.KernelIdeal.Hand.final_out]
  rfl

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
